-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S16000x12544 : S_.BroadcastsInDim S16000x12544 (![] : Fin 0 → Fin S16000x12544.rank)
  reducesTo_S16000x12544_S_d0_1 : S16000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S16000x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S16000x12544 .f32 := Host.absf main_arg0
  let main_cst : FVec F S_ .f32 := constant S_ .f32 0x7F800000#32
  let main_v1 : FVec F S16000x12544 .f32 := broadcastInDim S16000x12544 ![] bcast_S_S16000x12544 main_cst
  let main_v2 : IVec S16000x12544 1 := cmpf .olt main_v0 main_v1
  let main_c : IVec S_ 1 := constantI S_ 1 1#1
  let main_v3 : IVec S_ 1 := (fun x v => Host.reduce IntOp.andi x v reducesTo_S16000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1024x16 : Shape := ⟨2, ![1024, 16]⟩
abbrev S16 : Shape := ⟨1, ![16]⟩
abbrev S16000x16 : Shape := ⟨2, ![16000, 16]⟩
abbrev S800x896 : Shape := ⟨2, ![800, 896]⟩
abbrev S896x1024 : Shape := ⟨2, ![896, 1024]⟩
abbrev S800x16 : Shape := ⟨2, ![800, 16]⟩
abbrev S800x1024 : Shape := ⟨2, ![800, 1024]⟩
abbrev S1x1024 : Shape := ⟨2, ![1, 1024]⟩
abbrev S1x16 : Shape := ⟨2, ![1, 16]⟩
abbrev S16000x4 : Shape := ⟨2, ![16000, 4]⟩
abbrev S16000x12 : Shape := ⟨2, ![16000, 12]⟩

abbrev nBuf : Space → Nat
  | .hbm => 17
  | .vmem => 12
  | .smem => 0
  | _ => 0

abbrev bufTy : (tb : Table) → Fin (tcTables nBuf tb) → BufTy
  | .hbm, ⟨0, _⟩ => ⟨S16000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S12544x1024, .bf16⟩
  | .hbm, ⟨10, _⟩ => ⟨S1024x1024, .bf16⟩
  | .hbm, ⟨11, _⟩ => ⟨S1024x16, .f32⟩
  | .hbm, ⟨12, _⟩ => ⟨S16, .f32⟩
  | .hbm, ⟨13, _⟩ => ⟨S1024x16, .bf16⟩
  | .hbm, ⟨14, _⟩ => ⟨S16000x16, .f32⟩
  | .hbm, ⟨15, _⟩ => ⟨S16000x4, .f32⟩
  | .hbm, ⟨16, _⟩ => ⟨S16000x12, .f32⟩
  | .local _ .vmem, ⟨0, _⟩ => ⟨S800x896, .f32⟩
  | .local _ .vmem, ⟨1, _⟩ => ⟨S800x896, .f32⟩
  | .local _ .vmem, ⟨2, _⟩ => ⟨S896x1024, .bf16⟩
  | .local _ .vmem, ⟨3, _⟩ => ⟨S896x1024, .bf16⟩
  | .local _ .vmem, ⟨4, _⟩ => ⟨S1024, .f32⟩
  | .local _ .vmem, ⟨5, _⟩ => ⟨S1024x1024, .bf16⟩
  | .local _ .vmem, ⟨6, _⟩ => ⟨S1024, .f32⟩
  | .local _ .vmem, ⟨7, _⟩ => ⟨S1024x16, .bf16⟩
  | .local _ .vmem, ⟨8, _⟩ => ⟨S16, .f32⟩
  | .local _ .vmem, ⟨9, _⟩ => ⟨S800x16, .f32⟩
  | .local _ .vmem, ⟨10, _⟩ => ⟨S800x16, .f32⟩
  | .local _ .vmem, ⟨11, _⟩ => ⟨S800x1024, .f32⟩
  | _, _ => ⟨S16000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![20, 14], ![false, false]⟩

def k0_cond2 (i : grid0.Coords) : BitVec 1 :=
  let arg1 : BitVec 32 := BitVec.ofNat 32 (i 1).val
  let c13_i32 : BitVec 32 := 13#32
  let v13 : BitVec 1 := Scalar.cmpi .eq arg1 c13_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S800x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S800x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  concatenates_S1024x4_S1024x12_S1024x16_d1 : Shape.Concatenates [S1024x4, S1024x12] S1024x16 1
  concatenates_S4_S12_S16_d0 : Shape.Concatenates [S4, S12] S16 0
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  inb_S800x896_S800x896_0_0 : ∀ a, (![0, 0] : Fin 2 → Nat) a + S800x896.size a ≤ S800x896.size a
  h_S800x896 : 0 < S800x896.numel
  inb_S896x1024_S896x1024_0_0 : ∀ a, (![0, 0] : Fin 2 → Nat) a + S896x1024.size a ≤ S896x1024.size a
  h_S896x1024 : 0 < S896x1024.numel
  shapeCasts_S896x1024_S896x1024 : S896x1024.ShapeCasts S896x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S800x1024 : S1x1024.Broadcasts S800x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16_S16_0 : ∀ a, (![0] : Fin 1 → Nat) a + S16.size a ≤ S16.size a
  h_S16 : 0 < S16.numel
  shapeCasts_S16_S16 : S16.ShapeCasts S16
  shapeCasts_S16_S1x16 : S16.ShapeCasts S1x16
  broadcasts_S1x16_S800x16 : S1x16.Broadcasts S800x16
  inb_S800x16_S800x16_0_0 : ∀ a, (![0, 0] : Fin 2 → Nat) a + S800x16.size a ≤ S800x16.size a
  h_S800x16 : 0 < S800x16.numel
  slices_S16000x16_S16000x4_0_0 : S16000x16.Slices ![0, 0] S16000x4
  slices_S16000x16_S16000x12_0_4 : S16000x16.Slices ![0, 4] S16000x12
  dot_S800x896_S896x1024_S800x1024_1_0_0_1_n_n_wf : DotDims.WF S800x896 S896x1024 S800x1024 [1] [0] [0] [1] [] []
  dot_S800x1024_S1024x1024_S800x1024_1_0_0_1_n_n_wf : DotDims.WF S800x1024 S1024x1024 S800x1024 [1] [0] [0] [1] [] []
  dot_S800x1024_S1024x16_S800x16_1_0_0_1_n_n_wf : DotDims.WF S800x1024 S1024x16 S800x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x896.size a ≤ S16000x12544.size a
  hwx0_0 : ∀ i : grid0.Coords, EltTy.bits .f32 = 32 ∨ (Rect.block (s := S16000x12544) S800x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x1024.size a ≤ S12544x1024.size a
  hwx0_1 : ∀ i : grid0.Coords, EltTy.bits .bf16 = 32 ∨ (Rect.block (s := S12544x1024) S896x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S1024x16.size a
  hwx0_5 : ∀ i : grid0.Coords, EltTy.bits .bf16 = 32 ∨ (Rect.block (s := S1024x16) S1024x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S800x16.size a ≤ S16000x16.size a
  hwx0_7 : ∀ i : grid0.Coords, EltTy.bits .f32 = 32 ∨ (Rect.block (s := S16000x16) S800x16.size (cc0_transform_7 i) (hinb0_7 i)).WholeWords (EltTy.packing .f32)

variable [Facts₀]

def dot_S800x896_S896x1024_S800x1024_1_0_0_1_n_n : DotDims S800x896 S896x1024 S800x1024 where
  lhsContracting := [1]
  rhsContracting := [0]
  lhsNonContracting := [0]
  rhsNonContracting := [1]
  lhsBatch := []
  rhsBatch := []
  wf := dot_S800x896_S896x1024_S800x1024_1_0_0_1_n_n_wf
def dot_S800x1024_S1024x1024_S800x1024_1_0_0_1_n_n : DotDims S800x1024 S1024x1024 S800x1024 where
  lhsContracting := [1]
  rhsContracting := [0]
  lhsNonContracting := [0]
  rhsNonContracting := [1]
  lhsBatch := []
  rhsBatch := []
  wf := dot_S800x1024_S1024x1024_S800x1024_1_0_0_1_n_n_wf
def dot_S800x1024_S1024x16_S800x16_1_0_0_1_n_n : DotDims S800x1024 S1024x16 S800x16 where
  lhsContracting := [1]
  rhsContracting := [0]
  lhsNonContracting := [0]
  rhsNonContracting := [1]
  lhsBatch := []
  rhsBatch := []
  wf := dot_S800x1024_S1024x16_S800x16_1_0_0_1_n_n_wf

abbrev win0_0 : Pipeline.Window sig grid0 :=
  Pipeline.Window.ofSpec (Memref.whole main_arg0) S800x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S896x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S800x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16000x12544 : Shape := ⟨2, ![16000, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S16000x1024 : Shape := ⟨2, ![16000, 1024]⟩
abbrev S1x1024 : Shape := ⟨2, ![1, 1024]⟩
abbrev S_ : Shape := ⟨0, ![]⟩
abbrev S16000x4 : Shape := ⟨2, ![16000, 4]⟩
abbrev S1x4 : Shape := ⟨2, ![1, 4]⟩
abbrev S16000x12 : Shape := ⟨2, ![16000, 12]⟩
abbrev S1x12 : Shape := ⟨2, ![1, 12]⟩

abbrev nBuf : Space → Nat
  | .hbm => 31
  | .vmem => 0
  | .smem => 0
  | _ => 0

abbrev bufTy : (tb : Table) → Fin (tcTables nBuf tb) → BufTy
  | .hbm, ⟨0, _⟩ => ⟨S16000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S16000x1024, .f32⟩
  | .hbm, ⟨10, _⟩ => ⟨S1x1024, .f32⟩
  | .hbm, ⟨11, _⟩ => ⟨S16000x1024, .f32⟩
  | .hbm, ⟨12, _⟩ => ⟨S16000x1024, .f32⟩
  | .hbm, ⟨13, _⟩ => ⟨S_, .f32⟩
  | .hbm, ⟨14, _⟩ => ⟨S16000x1024, .f32⟩
  | .hbm, ⟨15, _⟩ => ⟨S16000x1024, .f32⟩
  | .hbm, ⟨16, _⟩ => ⟨S16000x1024, .f32⟩
  | .hbm, ⟨17, _⟩ => ⟨S1x1024, .f32⟩
  | .hbm, ⟨18, _⟩ => ⟨S16000x1024, .f32⟩
  | .hbm, ⟨19, _⟩ => ⟨S16000x1024, .f32⟩
  | .hbm, ⟨20, _⟩ => ⟨S_, .f32⟩
  | .hbm, ⟨21, _⟩ => ⟨S16000x1024, .f32⟩
  | .hbm, ⟨22, _⟩ => ⟨S16000x1024, .f32⟩
  | .hbm, ⟨23, _⟩ => ⟨S16000x4, .f32⟩
  | .hbm, ⟨24, _⟩ => ⟨S1x4, .f32⟩
  | .hbm, ⟨25, _⟩ => ⟨S16000x4, .f32⟩
  | .hbm, ⟨26, _⟩ => ⟨S16000x4, .f32⟩
  | .hbm, ⟨27, _⟩ => ⟨S16000x12, .f32⟩
  | .hbm, ⟨28, _⟩ => ⟨S1x12, .f32⟩
  | .hbm, ⟨29, _⟩ => ⟨S16000x12, .f32⟩
  | .hbm, ⟨30, _⟩ => ⟨S16000x12, .f32⟩
  | _, _ => ⟨S16000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16000x1024_0_1 : S1x1024.BroadcastsInDim S16000x1024 (![0, 1] : Fin 2 → Fin S16000x1024.rank)
  bcast_S_S16000x1024 : S_.BroadcastsInDim S16000x1024 (![] : Fin 0 → Fin S16000x1024.rank)
  bcast_S4_S1x4_1 : S4.BroadcastsInDim S1x4 (![1] : Fin 1 → Fin S1x4.rank)
  bcast_S1x4_S16000x4_0_1 : S1x4.BroadcastsInDim S16000x4 (![0, 1] : Fin 2 → Fin S16000x4.rank)
  bcast_S12_S1x12_1 : S12.BroadcastsInDim S1x12 (![1] : Fin 1 → Fin S1x12.rank)
  bcast_S1x12_S16000x12_0_1 : S1x12.BroadcastsInDim S16000x12 (![0, 1] : Fin 2 → Fin S16000x12.rank)
  dot_S16000x12544_S12544x1024_S16000x1024_1_0_0_1_n_n_wf : DotDims.WF S16000x12544 S12544x1024 S16000x1024 [1] [0] [0] [1] [] []
  dot_S16000x1024_S1024x1024_S16000x1024_1_0_0_1_n_n_wf : DotDims.WF S16000x1024 S1024x1024 S16000x1024 [1] [0] [0] [1] [] []
  dot_S16000x1024_S1024x4_S16000x4_1_0_0_1_n_n_wf : DotDims.WF S16000x1024 S1024x4 S16000x4 [1] [0] [0] [1] [] []
  dot_S16000x1024_S1024x12_S16000x12_1_0_0_1_n_n_wf : DotDims.WF S16000x1024 S1024x12 S16000x12 [1] [0] [0] [1] [] []

variable [Facts₀]

def dot_S16000x12544_S12544x1024_S16000x1024_1_0_0_1_n_n : DotDims S16000x12544 S12544x1024 S16000x1024 where
  lhsContracting := [1]
  rhsContracting := [0]
  lhsNonContracting := [0]
  rhsNonContracting := [1]
  lhsBatch := []
  rhsBatch := []
  wf := dot_S16000x12544_S12544x1024_S16000x1024_1_0_0_1_n_n_wf
def dot_S16000x1024_S1024x1024_S16000x1024_1_0_0_1_n_n : DotDims S16000x1024 S1024x1024 S16000x1024 where
  lhsContracting := [1]
  rhsContracting := [0]
  lhsNonContracting := [0]
  rhsNonContracting := [1]
  lhsBatch := []
  rhsBatch := []
  wf := dot_S16000x1024_S1024x1024_S16000x1024_1_0_0_1_n_n_wf
def dot_S16000x1024_S1024x4_S16000x4_1_0_0_1_n_n : DotDims S16000x1024 S1024x4 S16000x4 where
  lhsContracting := [1]
  rhsContracting := [0]
  lhsNonContracting := [0]
  rhsNonContracting := [1]
  lhsBatch := []
  rhsBatch := []
  wf := dot_S16000x1024_S1024x4_S16000x4_1_0_0_1_n_n_wf
def dot_S16000x1024_S1024x12_S16000x12_1_0_0_1_n_n : DotDims S16000x1024 S1024x12 S16000x12 where
  lhsContracting := [1]
  rhsContracting := [0]
  lhsNonContracting := [0]
  rhsNonContracting := [1]
  lhsBatch := []
  rhsBatch := []
  wf := dot_S16000x1024_S1024x12_S16000x12_1_0_0_1_n_n_wf

class Facts : Prop extends Facts₀ where

variable [Facts]
-- ==== Proof.Pieces.lean ====
/-
  What one grid point leaves behind, as values. The body keeps a running 800 × 1024 accumulator between points:
  at the first column tile of a row tile it clears the accumulator and adds the tile's partial product to the zero block;
  at every later column tile it adds the tile's partial product to what the point before left; and at the last column
  tile it also stores the output block: the two rectified dense layers and the output layer applied to the finished
  accumulator. Each store covers its whole buffer, so what is read back is the stored value itself.
-/
import proofs.«176440_j32427003085530_2_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later column tile that is not the last: the accumulator ends at what it held plus the tile's partial product. -/
theorem carried_B (c : Dev nD) (i : grid0.Coords) (arg2 : Memref sig .tc .vmem S800x896 .f32) (harg2 : arg2.IsWhole) (arg3 : Memref sig .tc .vmem S896x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x16 .bf16) (harg7 : arg7.IsWhole) (arg8 : Memref sig .tc .vmem S16 .f32) (harg8 : arg8.IsWhole) (arg9 : Memref sig .tc .vmem S800x16 .f32) (harg9 : arg9.IsWhole) (arg10 : Memref sig .tc .vmem S800x1024 .f32) (harg10 : arg10.IsWhole) (hc0 : ¬cond0_0 i) (hc1 : ¬cond0_1 i)
    (x0 : Vec F S800x896 .f32) (x1 : Vec F S896x1024 .bf16) (x2 : Vec F S1024 .f32) (x3 : Vec F S1024x1024 .bf16) (x4 : Vec F S1024 .f32) (x5 : Vec F S1024x16 .bf16) (x6 : Vec F S16 .f32) (xs0 : Vec F S800x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg10.read_unread,
    View.ld_unit_zero (S := S800x896) hz, View.ld_unit_zero (S := S896x1024) hz, View.ld_unit_zero (S := S800x1024) hz]

/-- The first column tile: the accumulator is cleared, read back, and ends at the zero block plus the tile's partial
    product. -/
theorem carried_A (c : Dev nD) (i : grid0.Coords) (arg2 : Memref sig .tc .vmem S800x896 .f32) (harg2 : arg2.IsWhole) (arg3 : Memref sig .tc .vmem S896x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x16 .bf16) (harg7 : arg7.IsWhole) (arg8 : Memref sig .tc .vmem S16 .f32) (harg8 : arg8.IsWhole) (arg9 : Memref sig .tc .vmem S800x16 .f32) (harg9 : arg9.IsWhole) (arg10 : Memref sig .tc .vmem S800x1024 .f32) (harg10 : arg10.IsWhole) (hc0 : cond0_0 i) (hc1 : ¬cond0_1 i)
    (x0 : Vec F S800x896 .f32) (x1 : Vec F S896x1024 .bf16) (x2 : Vec F S1024 .f32) (x3 : Vec F S1024x1024 .bf16) (x4 : Vec F S1024 .f32) (x5 : Vec F S1024x16 .bf16) (x6 : Vec F S16 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S800x1024) hz, View.readCov_unit_zero (S := S800x1024) _ hz]
  simp only [View.readAt_eq_ld, harg2.read_unread, harg3.read_unread,
    View.ld_unit_zero (S := S800x896) hz, View.ld_unit_zero (S := S896x1024) hz]

/-- The last column tile, the accumulator: as at any later tile. -/
theorem carried_C (c : Dev nD) (i : grid0.Coords) (arg2 : Memref sig .tc .vmem S800x896 .f32) (harg2 : arg2.IsWhole) (arg3 : Memref sig .tc .vmem S896x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x16 .bf16) (harg7 : arg7.IsWhole) (arg8 : Memref sig .tc .vmem S16 .f32) (harg8 : arg8.IsWhole) (arg9 : Memref sig .tc .vmem S800x16 .f32) (harg9 : arg9.IsWhole) (arg10 : Memref sig .tc .vmem S800x1024 .f32) (harg10 : arg10.IsWhole) (hc0 : ¬cond0_0 i) (hc1 : cond0_1 i)
    (x0 : Vec F S800x896 .f32) (x1 : Vec F S896x1024 .bf16) (x2 : Vec F S1024 .f32) (x3 : Vec F S1024x1024 .bf16) (x4 : Vec F S1024 .f32) (x5 : Vec F S1024x16 .bf16) (x6 : Vec F S16 .f32) (xs0 : Vec F S800x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg10.read_unread,
    View.ld_unit_zero (S := S800x896) hz, View.ld_unit_zero (S := S896x1024) hz, View.ld_unit_zero (S := S800x1024) hz]

/-- The last column tile, the output block: the layers applied to the accumulator as this point leaves it. -/
theorem out_C (c : Dev nD) (i : grid0.Coords) (arg2 : Memref sig .tc .vmem S800x896 .f32) (harg2 : arg2.IsWhole) (arg3 : Memref sig .tc .vmem S896x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x16 .bf16) (harg7 : arg7.IsWhole) (arg8 : Memref sig .tc .vmem S16 .f32) (harg8 : arg8.IsWhole) (arg9 : Memref sig .tc .vmem S800x16 .f32) (harg9 : arg9.IsWhole) (arg10 : Memref sig .tc .vmem S800x1024 .f32) (harg10 : arg10.IsWhole) (hc0 : ¬cond0_0 i) (hc1 : cond0_1 i)
    (x0 : Vec F S800x896 .f32) (x1 : Vec F S896x1024 .bf16) (x2 : Vec F S1024 .f32) (x3 : Vec F S1024x1024 .bf16) (x4 : Vec F S1024 .f32) (x5 : Vec F S1024x16 .bf16) (x6 : Vec F S16 .f32) (xs0 : Vec F S800x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 (k0_pay2 x0 xs0 x1) x2 x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S800x1024) _ hz]
  simp only [View.readAt_eq_ld, harg2.read_unread, harg3.read_unread, harg4.read_unread, harg5.read_unread,
    harg6.read_unread, harg7.read_unread, harg8.read_unread, harg10.read_unread,
    View.ld_unit_zero (S := S800x896) hz, View.ld_unit_zero (S := S896x1024) hz, View.ld_unit_zero (S := S800x1024) hz,
    View.ld_unit_zero (S := S1024x1024) hz, View.ld_unit_zero (S := S1024x16) hz,
    View.ld_unit_zero (S := S1024) hz1, View.ld_unit_zero (S := S16) hz1]

end Cert.KernelIdeal.Found

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Payload.lean ====
/-
  The body's arithmetic at the exact values, entry by entry. The cleared accumulator is the zero word everywhere. One
  accumulation step adds to the accumulator's entry (p, i) the inner product of row p of the point's 800 × 896 tile
  of the features with column i of its 896 × 1024 tile of the first weight matrix. The epilogue's entry (p, q) is the
  output layer over the second hidden layer over the first, both rectified against the zero word, the first one's
  pre-activation being the finished accumulator plus the bias; a bias is a row laid over every row of the block.
  Changes of float format are the identity on exact values.
-/
import proofs.«176440_j32427003085530_2_alg».proof.Proof.Gen.KernelIdeal.Skeleton
import proofs.«176440_j32427003085530_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal Cert.KernelIdeal.Gen
open scoped BigOperators

/-- The level the rectifier compares with, and the cleared accumulator's entries: the f32 zero word, as it reads. -/
abbrev z : EReal := Ideal.ofBits .f32 0x00000000#32

/-- A length-b vector laid as a 1 × b row and repeated over a rows reads, at (p, c), the vector's entry c. -/
theorem bias_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The cleared accumulator. -/
theorem cleared_apply (p : Fin 800) (i : Fin 1024) : k0_pay1 (F := Ideal) (ix2 p i) = z := by
  unfold k0_pay1
  simp only [shapeCast_self]
  rfl

/-- One accumulation step. -/
theorem step_apply (x : Vec Ideal S800x896 .f32) (acc : Vec Ideal S800x1024 .f32) (w : Vec Ideal S896x1024 .bf16)
    (p : Fin 800) (i : Fin 1024) :
    k0_pay2 (F := Ideal) x acc w (ix2 p i) = acc (ix2 p i) + ∑ j : Fin 896, x (ix2 p j) * w (ix2 j i) := by
  unfold k0_pay2
  simp only [shapeCast_self]
  rw [addf_apply]
  refine congrArg (acc (ix2 p i) + ·) ?_
  exact (Cert.LibDot.matmul_zero_apply (φ₁ := .bf16) (φ₂ := .bf16) Facts₀.dot_S800x896_S896x1024_S800x1024_1_0_0_1_n_n_wf none _ w p i).trans
    (Finset.sum_congr rfl fun j _ => rfl)

/-- The epilogue. -/
theorem epilogue_apply (acc : Vec Ideal S800x1024 .f32) (b1 : Vec Ideal S1024 .f32) (w2 : Vec Ideal S1024x1024 .bf16)
    (b2 : Vec Ideal S1024 .f32) (wh : Vec Ideal S1024x16 .bf16) (bh : Vec Ideal S16 .f32) (p : Fin 800) (q : Fin 16) :
    k0_pay3 (F := Ideal) acc b1 w2 b2 wh bh (ix2 p q)
      = (∑ j : Fin 1024, max ((∑ i : Fin 1024, max (acc (ix2 p i) + b1 (ix1 i)) z * w2 (ix2 i j)) + b2 (ix1 j)) z
          * wh (ix2 j q)) + bh (ix1 q) := by
  unfold k0_pay3
  simp only [shapeCast_self]
  rw [addf_apply]
  refine congrArg₂ (· + ·) ?_ (bias_row_apply bh _ _ p q)
  refine (Cert.LibDot.matmul_zero_apply (φ₁ := .bf16) (φ₂ := .bf16) Facts₀.dot_S800x1024_S1024x16_S800x16_1_0_0_1_n_n_wf none _ wh p q).trans
    (Finset.sum_congr rfl fun j _ => ?_)
  refine congrArg (· * wh (ix2 j q)) ?_
  refine congrArg₂ max (congrArg₂ (· + ·) ?_ (bias_row_apply b2 _ _ p j)) rfl
  refine (Cert.LibDot.matmul_zero_apply (φ₁ := .bf16) (φ₂ := .bf16) Facts₀.dot_S800x1024_S1024x1024_S800x1024_1_0_0_1_n_n_wf none _ w2 p j).trans
    (Finset.sum_congr rfl fun i _ => ?_)
  refine congrArg (· * w2 (ix2 i j)) ?_
  exact congrArg₂ max (congrArg₂ (· + ·) rfl (bias_row_apply b1 _ _ p i)) rfl

end Cert.KernelIdeal.Payload

end
-- ==== Proof.Blocks.lean ====
/-
  What the body's loads see. Grid point t is row tile t / 14 and column tile t % 14 (20 × 14 points). Its block of
  the features is rows 800·(t/14) … and columns 896·(t%14) … of the feature matrix; its block of the first weight
  matrix is rows 896·(t%14) … and every column; the two biases, the second weight matrix and the joined output
  weights and bias are whole at every point. Before the launch the host writes the operands that are not arguments:
  the two square weight matrices in the narrower float format, the output weights of both heads joined column-wise (and
  then narrowed), and the two output biases joined end to end.
-/
import proofs.«176440_j32427003085530_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem
open Cert.KernelIdeal Cert.KernelIdeal.Gen

open Idealize.ShloMosaic.ValueIdx

variable {F : FTy → Type} [FloatOps F]
variable (m : (ℓ : Loc nD τ sig) → Buf (Elt F) ℓ)

/-! ## Where each window's block sits -/

theorem index_x : ∀ t : Fin cfg0.N, win0_0.index t 0 = t.val / 14 ∧ win0_0.index t 1 = t.val % 14 :=
  (by decide +kernel : ∀ t : Fin grid0.N, win0_0.index t 0 = t.val / 14 ∧ win0_0.index t 1 = t.val % 14)
theorem index_w1 : ∀ t : Fin cfg0.N, win0_1.index t 0 = t.val % 14 ∧ win0_1.index t 1 = 0 :=
  (by decide +kernel : ∀ t : Fin grid0.N, win0_1.index t 0 = t.val % 14 ∧ win0_1.index t 1 = 0)
theorem index_b1 : ∀ t : Fin cfg0.N, win0_2.index t 0 = 0 :=
  (by decide +kernel : ∀ t : Fin grid0.N, win0_2.index t 0 = 0)
theorem index_w2 : ∀ t : Fin cfg0.N, win0_3.index t 0 = 0 ∧ win0_3.index t 1 = 0 :=
  (by decide +kernel : ∀ t : Fin grid0.N, win0_3.index t 0 = 0 ∧ win0_3.index t 1 = 0)
theorem index_b2 : ∀ t : Fin cfg0.N, win0_4.index t 0 = 0 :=
  (by decide +kernel : ∀ t : Fin grid0.N, win0_4.index t 0 = 0)
theorem index_wh : ∀ t : Fin cfg0.N, win0_5.index t 0 = 0 ∧ win0_5.index t 1 = 0 :=
  (by decide +kernel : ∀ t : Fin grid0.N, win0_5.index t 0 = 0 ∧ win0_5.index t 1 = 0)
theorem index_bh : ∀ t : Fin cfg0.N, win0_6.index t 0 = 0 :=
  (by decide +kernel : ∀ t : Fin grid0.N, win0_6.index t 0 = 0)
theorem index_out : ∀ t : Fin cfg0.N, win0_7.index t 0 = t.val / 14 ∧ win0_7.index t 1 = 0 :=
  (by decide +kernel : ∀ t : Fin grid0.N, win0_7.index t 0 = t.val / 14 ∧ win0_7.index t 1 = 0)

/-! ## The blocks read at an entry -/

/-- Entry (p, j) of the point's block of the features is entry (800·(t/14) + p, 896·(t%14) + j) of the matrix. -/
theorem x_blk (c : Dev nD) (t : Fin cfg0.N) (p : Fin 800) (j : Fin 896) (a : Fin 16000) (k : Fin 12544)
    (ha : a.val = 800 * (t.val / 14) + p.val) (hk : k.val = 896 * (t.val % 14) + j.val) :
    (iblk m c 0 t : Vec F S800x896 .f32) (ix2 p j) = V m c main_arg0 (ix2 a k) := by
  unfold iblk
  rw [View.read_apply]
  show V m c main_arg0 (((cfg0.win 0).blk t).view.emb (ix2 p j)) = V m c main_arg0 (ix2 a k)
  refine congrArg (V m c main_arg0) (funext fun ax => Fin.ext ?_)
  match ax with
  | ⟨0, _⟩ => show win0_0.index t 0 * 800 + 1 * p.val = a.val; rw [(index_x t).1, ha]; omega
  | ⟨1, _⟩ => show win0_0.index t 1 * 896 + 1 * j.val = k.val; rw [(index_x t).2, hk]; omega

/-- Entry (j, i) of the point's block of the first weight matrix is entry (896·(t%14) + j, i) of the matrix. -/
theorem w1_blk (c : Dev nD) (t : Fin cfg0.N) (j : Fin 896) (i : Fin 1024) (k : Fin 12544)
    (hk : k.val = 896 * (t.val % 14) + j.val) :
    (iblk m c 1 t : Vec F S896x1024 .bf16) (ix2 j i) = V m c main_v0 (ix2 k i) := by
  unfold iblk
  rw [View.read_apply]
  show V m c main_v0 (((cfg0.win 1).blk t).view.emb (ix2 j i)) = V m c main_v0 (ix2 k i)
  refine congrArg (V m c main_v0) (funext fun ax => Fin.ext ?_)
  match ax with
  | ⟨0, _⟩ => show win0_1.index t 0 * 896 + 1 * j.val = k.val; rw [(index_w1 t).1, hk]; omega
  | ⟨1, _⟩ => show win0_1.index t 1 * 1024 + 1 * i.val = i.val; rw [(index_w1 t).2]; omega

theorem b1_blk (c : Dev nD) (t : Fin cfg0.N) (i : Fin 1024) :
    (iblk m c 2 t : Vec F S1024 .f32) (ix1 i) = V m c main_arg2 (ix1 i) := by
  unfold iblk
  rw [View.read_apply]
  show V m c main_arg2 (((cfg0.win 2).blk t).view.emb (ix1 i)) = V m c main_arg2 (ix1 i)
  refine congrArg (V m c main_arg2) (funext fun ax => Fin.ext ?_)
  match ax with
  | ⟨0, _⟩ => show win0_2.index t 0 * 1024 + 1 * i.val = i.val; rw [index_b1 t]; omega

theorem w2_blk (c : Dev nD) (t : Fin cfg0.N) (i : Fin 1024) (j : Fin 1024) :
    (iblk m c 3 t : Vec F S1024x1024 .bf16) (ix2 i j) = V m c main_v1 (ix2 i j) := by
  unfold iblk
  rw [View.read_apply]
  show V m c main_v1 (((cfg0.win 3).blk t).view.emb (ix2 i j)) = V m c main_v1 (ix2 i j)
  refine congrArg (V m c main_v1) (funext fun ax => Fin.ext ?_)
  match ax with
  | ⟨0, _⟩ => show win0_3.index t 0 * 1024 + 1 * i.val = i.val; rw [(index_w2 t).1]; omega
  | ⟨1, _⟩ => show win0_3.index t 1 * 1024 + 1 * j.val = j.val; rw [(index_w2 t).2]; omega

theorem b2_blk (c : Dev nD) (t : Fin cfg0.N) (i : Fin 1024) :
    (iblk m c 4 t : Vec F S1024 .f32) (ix1 i) = V m c main_arg4 (ix1 i) := by
  unfold iblk
  rw [View.read_apply]
  show V m c main_arg4 (((cfg0.win 4).blk t).view.emb (ix1 i)) = V m c main_arg4 (ix1 i)
  refine congrArg (V m c main_arg4) (funext fun ax => Fin.ext ?_)
  match ax with
  | ⟨0, _⟩ => show win0_4.index t 0 * 1024 + 1 * i.val = i.val; rw [index_b2 t]; omega

theorem wh_blk (c : Dev nD) (t : Fin cfg0.N) (j : Fin 1024) (q : Fin 16) :
    (iblk m c 5 t : Vec F S1024x16 .bf16) (ix2 j q) = V m c main_v4 (ix2 j q) := by
  unfold iblk
  rw [View.read_apply]
  show V m c main_v4 (((cfg0.win 5).blk t).view.emb (ix2 j q)) = V m c main_v4 (ix2 j q)
  refine congrArg (V m c main_v4) (funext fun ax => Fin.ext ?_)
  match ax with
  | ⟨0, _⟩ => show win0_5.index t 0 * 1024 + 1 * j.val = j.val; rw [(index_wh t).1]; omega
  | ⟨1, _⟩ => show win0_5.index t 1 * 16 + 1 * q.val = q.val; rw [(index_wh t).2]; omega

theorem bh_blk (c : Dev nD) (t : Fin cfg0.N) (q : Fin 16) :
    (iblk m c 6 t : Vec F S16 .f32) (ix1 q) = V m c main_v3 (ix1 q) := by
  unfold iblk
  rw [View.read_apply]
  show V m c main_v3 (((cfg0.win 6).blk t).view.emb (ix1 q)) = V m c main_v3 (ix1 q)
  refine congrArg (V m c main_v3) (funext fun ax => Fin.ext ?_)
  match ax with
  | ⟨0, _⟩ => show win0_6.index t 0 * 16 + 1 * q.val = q.val; rw [index_bh t]; omega

/-! ## What the host wrote before the launch -/

theorem V_w1 (c : Dev nD) : (V m c main_v0 : S12544x1024.Idx → Elt F .bf16)
    = truncf .bf16 (m ((c : Thread nD τ).loc main_arg1)) bitsLt_bf16_f32 := by
  show StableHlo.after hostOps0 (fun b => m (c, b)) (Proc.devRef .tc main_v0) = _
  after_results

theorem V_w2 (c : Dev nD) : (V m c main_v1 : S1024x1024.Idx → Elt F .bf16)
    = truncf .bf16 (m ((c : Thread nD τ).loc main_arg3)) bitsLt_bf16_f32 := by
  show StableHlo.after hostOps0 (fun b => m (c, b)) (Proc.devRef .tc main_v1) = _
  after_results

theorem V_wh (c : Dev nD) : (V m c main_v4 : S1024x16.Idx → Elt F .bf16)
    = truncf .bf16 (concatenate S1024x16 1 [⟨S1024x4, m ((c : Thread nD τ).loc main_arg5)⟩,
        ⟨S1024x12, m ((c : Thread nD τ).loc main_arg7)⟩] concatenates_S1024x4_S1024x12_S1024x16_d1) bitsLt_bf16_f32 := by
  show StableHlo.after hostOps0 (fun b => m (c, b)) (Proc.devRef .tc main_v4) = _
  after_results

theorem V_bh (c : Dev nD) : (V m c main_v3 : S16.Idx → Elt F .f32)
    = concatenate S16 0 [⟨S4, m ((c : Thread nD τ).loc main_arg6)⟩, ⟨S12, m ((c : Thread nD τ).loc main_arg8)⟩]
        concatenates_S4_S12_S16_d0 := by
  show StableHlo.after hostOps0 (fun b => m (c, b)) (Proc.devRef .tc main_v3) = _
  after_results

end Cert.KernelIdeal.Blocks

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Spec.lean ====
/-
  A two-layer perceptron head on the extended reals, entry by entry: a dense layer followed by the rectifier,
  twice, and a last dense layer; the inner product of the first layer cut into tiles of consecutive positions;
  and the last layer over two weight matrices laid side by side, read at a column of either piece.
-/
import Idealize.ShloMosaic.PureOps.Ideal
import Idealize.ShloMosaic.Lib.ValueIdx
import proofs.«176440_j32427003085530_2_alg».proof.Proof.LibSums

noncomputable section

namespace Cert.Head

open Idealize.ShloMosaic Idealize.ShloMosaic.ValueIdx
open scoped BigOperators

variable {n k w v t : ℕ}

/-- Row a of X times column i of W, plus the bias at i: one entry of a dense layer before its activation. -/
def dense (X : (⟨2, ![n, k]⟩ : Shape).Idx → EReal) (W : (⟨2, ![k, w]⟩ : Shape).Idx → EReal)
    (b : (⟨1, ![w]⟩ : Shape).Idx → EReal) (a : Fin n) (i : Fin w) : EReal :=
  ∑ c : Fin k, X (ix2 a c) * W (ix2 c i) + b (ix1 i)

/-- The first hidden layer: the rectified dense layer (the larger of the entry and the level z). -/
def hid1 (z : EReal) (X : (⟨2, ![n, k]⟩ : Shape).Idx → EReal) (W1 : (⟨2, ![k, w]⟩ : Shape).Idx → EReal)
    (b1 : (⟨1, ![w]⟩ : Shape).Idx → EReal) (a : Fin n) (i : Fin w) : EReal :=
  max (dense X W1 b1 a i) z

/-- The second hidden layer, over the first. -/
def hid2 (z : EReal) (X : (⟨2, ![n, k]⟩ : Shape).Idx → EReal) (W1 : (⟨2, ![k, w]⟩ : Shape).Idx → EReal)
    (b1 : (⟨1, ![w]⟩ : Shape).Idx → EReal) (W2 : (⟨2, ![w, v]⟩ : Shape).Idx → EReal)
    (b2 : (⟨1, ![v]⟩ : Shape).Idx → EReal) (a : Fin n) (j : Fin v) : EReal :=
  max (∑ i : Fin w, hid1 z X W1 b1 a i * W2 (ix2 i j) + b2 (ix1 j)) z

/-- The output layer, over the second hidden layer: no activation. -/
def head (z : EReal) (X : (⟨2, ![n, k]⟩ : Shape).Idx → EReal) (W1 : (⟨2, ![k, w]⟩ : Shape).Idx → EReal)
    (b1 : (⟨1, ![w]⟩ : Shape).Idx → EReal) (W2 : (⟨2, ![w, v]⟩ : Shape).Idx → EReal)
    (b2 : (⟨1, ![v]⟩ : Shape).Idx → EReal) (Wo : (⟨2, ![v, t]⟩ : Shape).Idx → EReal)
    (bo : (⟨1, ![t]⟩ : Shape).Idx → EReal) (a : Fin n) (q : Fin t) : EReal :=
  ∑ j : Fin v, hid2 z X W1 b1 W2 b2 a j * Wo (ix2 j q) + bo (ix1 q)

/-- The output layer depends on its weights and bias only through column q. -/
theorem head_congr (z : EReal) (X : (⟨2, ![n, k]⟩ : Shape).Idx → EReal) (W1 : (⟨2, ![k, w]⟩ : Shape).Idx → EReal)
    (b1 : (⟨1, ![w]⟩ : Shape).Idx → EReal) (W2 : (⟨2, ![w, v]⟩ : Shape).Idx → EReal)
    (b2 : (⟨1, ![v]⟩ : Shape).Idx → EReal) {t' : ℕ} (Wo : (⟨2, ![v, t]⟩ : Shape).Idx → EReal)
    (bo : (⟨1, ![t]⟩ : Shape).Idx → EReal) (Wo' : (⟨2, ![v, t']⟩ : Shape).Idx → EReal)
    (bo' : (⟨1, ![t']⟩ : Shape).Idx → EReal) (a : Fin n) (q : Fin t) (q' : Fin t')
    (hW : ∀ j : Fin v, Wo (ix2 j q) = Wo' (ix2 j q')) (hb : bo (ix1 q) = bo' (ix1 q')) :
    head z X W1 b1 W2 b2 Wo bo a q = head z X W1 b1 W2 b2 Wo' bo' a q' := by
  unfold head
  rw [hb]
  exact congrArg (· + bo' (ix1 q')) (Finset.sum_congr rfl fun j _ => by rw [hW j])

/-- Term c of the inner product of row a of X with column i of W; zero from position k on. -/
def term (X : (⟨2, ![n, k]⟩ : Shape).Idx → EReal) (W : (⟨2, ![k, w]⟩ : Shape).Idx → EReal)
    (a : Fin n) (i : Fin w) (c : ℕ) : EReal :=
  if h : c < k then X (ix2 a ⟨c, h⟩) * W (ix2 ⟨c, h⟩ i) else 0

theorem term_of_lt (X : (⟨2, ![n, k]⟩ : Shape).Idx → EReal) (W : (⟨2, ![k, w]⟩ : Shape).Idx → EReal)
    (a : Fin n) (i : Fin w) (c : ℕ) (h : c < k) : term X W a i c = X (ix2 a ⟨c, h⟩) * W (ix2 ⟨c, h⟩ i) :=
  dif_pos h

/-- The inner product taken tile by tile: T tiles of B consecutive positions each, T · B = k. -/
theorem dot_eq_tiles (T B : ℕ) (hk : T * B = k) (X : (⟨2, ![n, k]⟩ : Shape).Idx → EReal)
    (W : (⟨2, ![k, w]⟩ : Shape).Idx → EReal) (a : Fin n) (i : Fin w) :
    ∑ c : Fin k, X (ix2 a c) * W (ix2 c i) = ∑ s ∈ Finset.range T, ∑ j : Fin B, term X W a i (s * B + j.val) := by
  rw [Cert.Sums.sum_tiles, hk, Finset.sum_range]
  exact Finset.sum_congr rfl fun c _ => (term_of_lt X W a i c.val c.isLt).symm

end Cert.Head

end
-- ==== Proof.Acc.lean ====
/-
  The accumulator point by point, and the output block at a row tile's last point. After the point at column tile
  s of a row tile, entry (p, i) of the accumulator is the zero word plus the first s + 1 tiles of the inner product of
  the feature row the entry belongs to with column i of the first weight matrix: the first tile is added to the
  cleared accumulator, each later tile to what the point before left. After the fourteenth tile that is the whole
  inner product over the 12544 = 14 · 896 features, so the block stored at that point is the two-layer perceptron
  head at the rows of its row tile.
-/
import proofs.«176440_j32427003085530_2_alg».proof.Proof.Pieces
import proofs.«176440_j32427003085530_2_alg».proof.Proof.Payload
import proofs.«176440_j32427003085530_2_alg».proof.Proof.Blocks
import proofs.«176440_j32427003085530_2_alg».proof.Proof.Spec

noncomputable section

namespace Cert.KernelIdeal.Acc

open Idealize.ShloMosaic Idealize.ShloMosaic.TcCoe Idealize.SL.Sem
open Cert.KernelIdeal Cert.KernelIdeal.Gen

open Idealize.ShloMosaic.ValueIdx
open Cert.Head Cert.KernelIdeal.Found Cert.KernelIdeal.Payload Cert.KernelIdeal.Blocks
open scoped BigOperators

/-! ## Each kind of point, over what the point before left (any float values) -/

section
variable {F : FTy → Type} [FloatOps F]
variable (m : (ℓ : Loc nD τ sig) → Buf (Elt F) ℓ)

theorem first_tile (c : Dev nD) (t : Fin cfg0.N) (h0 : t.val % 14 = 0) (h1 : ¬t.val % 14 = 13) :
    (outsAt0 m c t.val t.isLt).2 = k0_pay2 (iblk m c 0 t) (k0_pay1 (F := F)) (iblk m c 1 t) := by
  rw [outsAt0_A m c t h0 h1, carried_A]

theorem later_tile (c : Dev nD) (t : Fin cfg0.N) (h0 : ¬t.val % 14 = 0) (h1 : ¬t.val % 14 = 13) :
    (outsAt0 m c t.val t.isLt).2 = k0_pay2 (iblk m c 0 t) (outsAt0 m c (t.val - 1) (Nat.lt_of_le_of_lt (Nat.sub_le _ _) t.isLt)).2 (iblk m c 1 t) := by
  rw [outsAt0_B m c t h0 h1, carried_B]

theorem last_tile (c : Dev nD) (t : Fin cfg0.N) (h0 : ¬t.val % 14 = 0) (h1 : t.val % 14 = 13) :
    (outsAt0 m c t.val t.isLt).2 = k0_pay2 (iblk m c 0 t) (outsAt0 m c (t.val - 1) (Nat.lt_of_le_of_lt (Nat.sub_le _ _) t.isLt)).2 (iblk m c 1 t) := by
  rw [outsAt0_C m c t h0 h1, carried_C]

/-- The block stored at a row tile's last point: the epilogue of the accumulator as that point leaves it. -/
theorem last_block (c : Dev nD) (t : Fin cfg0.N) (h0 : ¬t.val % 14 = 0) (h1 : t.val % 14 = 13) :
    (outsAt0 m c t.val t.isLt).1 = k0_pay3 (outsAt0 m c t.val t.isLt).2 (iblk m c 2 t) (iblk m c 3 t) (iblk m c 4 t)
      (iblk m c 5 t) (iblk m c 6 t) := by
  rw [last_tile m c t h0 h1, outsAt0_C m c t h0 h1, out_C]

end

/-! ## At the exact values -/

variable (m : (ℓ : Loc nD τ sig) → Buf (Elt Ideal) ℓ)

theorem hN : cfg0.N = 280 := N_0

/-- Row p of the row tile point n works on, as a row of the feature matrix. -/
def grow (n : ℕ) (hn : n < cfg0.N) (p : Fin 800) : Fin 16000 :=
  ⟨800 * (n / 14) + p.val, by have := hN; have := p.isLt; omega⟩

/-- The kernel's operands as the launch finds them: the features, the two hidden layers' weights and biases, the joined
    output weights and bias. -/
def X (c : Dev nD) : S16000x12544.Idx → EReal := V m c main_arg0
def W1 (c : Dev nD) : S12544x1024.Idx → EReal := V m c main_v0
def B1 (c : Dev nD) : S1024.Idx → EReal := V m c main_arg2
def W2 (c : Dev nD) : S1024x1024.Idx → EReal := V m c main_v1
def B2 (c : Dev nD) : S1024.Idx → EReal := V m c main_arg4
def Wh (c : Dev nD) : S1024x16.Idx → EReal := V m c main_v4
def Bh (c : Dev nD) : S16.Idx → EReal := V m c main_v3

/-- Tile s of the inner product of feature row a with column i of the first weight matrix. -/
def tile (c : Dev nD) (a : Fin 16000) (i : Fin 1024) (s : ℕ) : EReal :=
  ∑ j : Fin 896, term (X m c) (W1 m c) a i (s * 896 + j.val)

/-- The partial product a point adds is its column tile's tile. -/
theorem tile_eq (c : Dev nD) (t : Fin cfg0.N) (xb : Vec Ideal S800x896 .f32) (wb : Vec Ideal S896x1024 .bf16)
    (hx : xb = iblk m c 0 t) (hw : wb = iblk m c 1 t) (p : Fin 800) (i : Fin 1024) :
    ∑ j : Fin 896, xb (ix2 p j) * wb (ix2 j i) = tile m c (grow t.val t.isLt p) i (t.val % 14) := by
  subst hx hw
  unfold tile
  refine Finset.sum_congr rfl fun j _ => ?_
  have hk : t.val % 14 * 896 + j.val < 12544 := by have := j.isLt; omega
  rw [term_of_lt _ _ _ _ _ hk]
  exact congrArg₂ (· * ·)
    (x_blk m c t p j (grow t.val t.isLt p) ⟨_, hk⟩ rfl (by show t.val % 14 * 896 + j.val = _; omega))
    (w1_blk m c t j i ⟨_, hk⟩ (by show t.val % 14 * 896 + j.val = _; omega))

/-- THE RUNNING SUM: after point n the accumulator's entry (p, i) is the zero word plus the tiles up to n's. -/
theorem acc_eq (c : Dev nD) : ∀ (n : ℕ) (hn : n < cfg0.N) (p : Fin 800) (i : Fin 1024),
    (outsAt0 m c n hn).2 (ix2 p i) = z + ∑ s ∈ Finset.range (n % 14 + 1), tile m c (grow n hn p) i s := by
  intro n
  induction n with
  | zero =>
    intro hn p i
    rw [first_tile m c ⟨0, hn⟩ (Nat.zero_mod 14) (by show ¬(0 % 14 = 13); omega), step_apply, cleared_apply, tile_eq m c _ _ _ rfl rfl]
    show z + tile m c (grow 0 hn p) i (0 % 14) = z + ∑ s ∈ Finset.range (0 % 14 + 1), tile m c (grow 0 hn p) i s
    rw [Nat.zero_mod, Finset.sum_range_one]
  | succ n ih =>
    intro hn p i
    have hlt : n < cfg0.N := Nat.lt_of_succ_lt hn
    by_cases h0 : (n + 1) % 14 = 0
    · rw [first_tile m c ⟨n + 1, hn⟩ h0 (by show ¬((n + 1) % 14 = 13); omega), step_apply, cleared_apply, tile_eq m c _ _ _ rfl rfl]
      show z + tile m c (grow (n + 1) hn p) i ((n + 1) % 14) = z + ∑ s ∈ Finset.range ((n + 1) % 14 + 1), tile m c (grow (n + 1) hn p) i s
      rw [h0, Finset.sum_range_one]
    · have hstep : (outsAt0 m c (n + 1) hn).2
          = k0_pay2 (iblk m c 0 ⟨n + 1, hn⟩) (outsAt0 m c n hlt).2 (iblk m c 1 ⟨n + 1, hn⟩) := by
        by_cases h1 : (n + 1) % 14 = 13
        · exact last_tile m c ⟨n + 1, hn⟩ h0 h1
        · exact later_tile m c ⟨n + 1, hn⟩ h0 h1
      rw [hstep, step_apply, ih hlt p i, tile_eq m c _ _ _ rfl rfl]
      have hg : grow (n + 1) hn p = grow n hlt p :=
        Fin.ext (by show 800 * ((n + 1) / 14) + p.val = 800 * (n / 14) + p.val; omega)
      have hm : (n + 1) % 14 = n % 14 + 1 := by omega
      show (z + ∑ s ∈ Finset.range (n % 14 + 1), tile m c (grow n hlt p) i s) + tile m c (grow (n + 1) hn p) i ((n + 1) % 14)
        = z + ∑ s ∈ Finset.range ((n + 1) % 14 + 1), tile m c (grow (n + 1) hn p) i s
      rw [hg, hm, Finset.sum_range_succ _ (n % 14 + 1), add_assoc]

/-- After a row tile's last point the accumulator holds the whole inner products. -/
theorem acc_full (c : Dev nD) (t : Fin cfg0.N) (h1 : t.val % 14 = 13) (p : Fin 800) (i : Fin 1024) :
    (outsAt0 m c t.val t.isLt).2 (ix2 p i)
      = ∑ k : Fin 12544, X m c (ix2 (grow t.val t.isLt p) k) * W1 m c (ix2 k i) := by
  rw [acc_eq m c t.val t.isLt p i, h1, dot_eq_tiles 14 896 rfl]
  show Ideal.ofBits .f32 0x00000000#32 + _ = _
  rw [Ideal.ofBits_zero_f32, zero_add]
  rfl

/-- THE STORED BLOCK: at a row tile's last point, entry (p, q) of the block is the head at the tile's row p and
    column q, over the operands as the launch finds them. -/
theorem block_eq (c : Dev nD) (t : Fin cfg0.N) (h1 : t.val % 14 = 13) (p : Fin 800) (q : Fin 16) :
    (outsAt0 m c t.val t.isLt).1 (ix2 p q)
      = head z (X m c) (W1 m c) (B1 m c) (W2 m c) (B2 m c) (Wh m c) (Bh m c) (grow t.val t.isLt p) q := by
  rw [last_block m c t (by omega) h1, epilogue_apply]
  unfold head hid2 hid1 dense
  rw [bh_blk m c t q]
  refine congrArg (· + _) (Finset.sum_congr rfl fun j _ => ?_)
  rw [wh_blk m c t j q, b2_blk m c t j]
  refine congrArg (fun u => max (u + _) z * _) (Finset.sum_congr rfl fun i _ => ?_)
  rw [w2_blk m c t i j, b1_blk m c t i, acc_full m c t h1 p i]
  rfl

end Cert.KernelIdeal.Acc

end
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.LibConcatVec.lean ====
/-
  Two vectors laid end to end (a concatenation along the only axis) read at an entry: entry c of the joined
  length-t vector is entry c of the left length-a piece when c < a, and entry c - a of the right length-b piece
  otherwise (a + b = t).
-/
import Idealize.ShloMosaic.Lib.Pipeline.Value
import Idealize.ShloMosaic.Lib.ValueIdx

noncomputable section

namespace Cert.LibConcatVec

open Idealize.ShloMosaic Idealize.ShloMosaic.ValueIdx

variable {α : Type} {a b t : Nat}

/-- Entry c of two vectors joined end to end: the left piece's entry when c is one of its positions, otherwise the
    right piece's entry, a positions further left. -/
theorem concat_vec_apply (hab : a + b = t)
    (x : (⟨1, ![a]⟩ : Shape).Idx → α) (y : (⟨1, ![b]⟩ : Shape).Idx → α)
    (h : Shape.Concatenates [(⟨1, ![a]⟩ : Shape), ⟨1, ![b]⟩] ⟨1, ![t]⟩ 0) (c : Fin t) :
    concatenate (⟨1, ![t]⟩ : Shape) 0 [⟨⟨1, ![a]⟩, x⟩, ⟨⟨1, ![b]⟩, y⟩] h (ix1 c)
      = if hc : c.val < a then x (ix1 ⟨c.val, hc⟩) else y (ix1 ⟨c.val - a, by omega⟩) := by
  split
  · next hc =>
    exact concatenate_pair_apply_left (0 : Fin 1) x y h (ix1 c) rfl (ix1 ⟨c.val, hc⟩)
      (fun d => match d with | ⟨0, _⟩ => rfl)
  · next hc =>
    exact concatenate_pair_apply_right (0 : Fin 1) x y h (ix1 c) rfl rfl (ix1 ⟨c.val - a, by omega⟩)
      (fun d hd => match d, hd with
        | ⟨0, _⟩, hd => absurd rfl hd)
      (by show (c.val - a) + a = c.val; omega)

end Cert.LibConcatVec
-- ==== Proof.Final.lean ====
/-
  The kernel's two results as functions of the arguments. The fused 16000 × 16 output array is the two-layer
  perceptron head over the joined output weights at every row: row tile r's block is stored once, at the tile's last
  point 14·r + 13, and the twenty blocks of 800 rows tile the array. The host then cuts columns 0–3 (the class
  logits) and columns 4–15 (the box predictions) out of it; a column of the joined weights is a column of the class
  weights when it is one of the first four and a column of the box weights otherwise, and likewise the joined bias.
  The narrowing of the weights to the shorter float format is the identity at the exact values.
-/
import proofs.«176440_j32427003085530_2_alg».proof.Proof.Acc
import proofs.«176440_j32427003085530_2_alg».proof.Proof.LibConcatCols
import proofs.«176440_j32427003085530_2_alg».proof.Proof.LibConcatVec
import Idealize.ShloMosaic.Lib.ValueLayout

noncomputable section

namespace Cert.KernelIdeal.Final

open Idealize.ShloMosaic Idealize.ShloMosaic.TcCoe Idealize.SL.Sem
open Cert.KernelIdeal Cert.KernelIdeal.Gen

open Idealize.ShloMosaic.ValueIdx
open Cert.Head Cert.KernelIdeal.Payload Cert.KernelIdeal.Blocks Cert.KernelIdeal.Acc
open Idealize.ShloMosaic.Pipeline (Dat)
open scoped BigOperators

variable (m : (ℓ : Loc nD τ sig) → Buf (Elt Ideal) ℓ) (ρ : Dev nD → PrngReg)

/-! ## The fused output array -/

/-- The head over the joined output weights, at every row and each of the sixteen columns. -/
def fused (c : Dev nD) : S16000x16.Idx → EReal :=
  fun i => head z (X m c) (W1 m c) (B1 m c) (W2 m c) (B2 m c) (Wh m c) (Bh m c) (i 0) (i 1)

/-- What a row tile's last point writes back is the tile's block of the fused array. -/
theorem flushed_eq (c : Dev nD) (t : Fin cfg0.N) (hf : (cfg0.win 7).flush t = true) :
    (dats m 0 c).flushed 7 t = ((cfg0.win 7).blk t).view.read (Elt Ideal) (fused m c) := by
  have h1 : t.val % 14 = 13 := (flush0_7 t).mp hf
  show (cfg0.win 7).cut (grid0.coords t) ((dats m 0 c).after 7 t) = _
  rw [after0_7]
  funext y
  obtain ⟨p, q, rfl⟩ : ∃ (p : Fin 800) (q : Fin 16), y = ix2 p q := ⟨y 0, y 1, eq_ix2 y⟩
  rw [View.read_apply]
  show (outsAt0 m c t.val t.isLt).1 (ix2 p q) = fused m c (((cfg0.win 7).blk t).view.emb (ix2 p q))
  rw [block_eq m c t h1 p q]
  have e : ((cfg0.win 7).blk t).view.emb (ix2 p q) = ix2 (grow t.val t.isLt p) q := funext fun ax => Fin.ext (by
    match ax with
    | ⟨0, _⟩ => show win0_7.index t 0 * 800 + 1 * p.val = 800 * (t.val / 14) + p.val; rw [(index_out t).1]; omega
    | ⟨1, _⟩ => show win0_7.index t 1 * 16 + 1 * q.val = q.val; rw [(index_out t).2]; omega)
  rw [e]
  rfl

/-- An entry of the array is in point t's block iff each coordinate is in the block's range on its axis. -/
theorem mem_blk (t : Fin cfg0.N) (i : S16000x16.Idx) :
    i ∈ ((cfg0.win 7).blk t).view.set ↔ ∀ a : Fin 2, win0_7.index t a * S800x16.size a ≤ (i a).val
      ∧ (i a).val < win0_7.index t a * S800x16.size a + S800x16.size a := by
  show i ∈ ((View.whole main_v5).slice (win0_7.rect t)).set ↔ _
  rw [View.set_slice_whole, Rect.mem_set_unit]
  exact Iff.rfl

/-- Every entry is in the block some row tile's last point writes back: row a is in row tile a / 800. -/
theorem cover (i : S16000x16.Idx) :
    ∃ t : Fin cfg0.N, (cfg0.win 7).flush t = true ∧ i ∈ ((cfg0.win 7).blk t).view.set := by
  have hi0 : (i 0).val < 16000 := (i 0).isLt
  have hi1 : (i 1).val < 16 := (i 1).isLt
  have hN := hN
  obtain ⟨t, ht⟩ : ∃ t : Fin cfg0.N, t.val = 14 * ((i 0).val / 800) + 13 := ⟨⟨14 * ((i 0).val / 800) + 13, by omega⟩, rfl⟩
  refine ⟨t, (flush0_7 t).mpr (by omega), ?_⟩
  rw [mem_blk]
  obtain ⟨e0, e1⟩ := index_out t
  intro a
  match a with
  | ⟨0, _⟩ =>
    show win0_7.index t 0 * 800 ≤ (i 0).val ∧ (i 0).val < win0_7.index t 0 * 800 + 800
    rw [e0]; omega
  | ⟨1, _⟩ =>
    show win0_7.index t 1 * 16 ≤ (i 1).val ∧ (i 1).val < win0_7.index t 1 * 16 + 16
    rw [e1]; omega

/-- So the fused array ends holding the head at every row. -/
theorem final (c : Dev nD) : (dats m 0 c).arrAt 7 cfg0.N = fused m c :=
  (dats m 0 c).arrAt_eq_of_cover 7 (fused m c) (flushed_eq m c) (cover)

/-! ## The host's two cuts -/

/-- The first result is the fused array's columns 0–3. -/
theorem tail_logits (c : Dev nD) : Pipeline.afterTail₀ cfgs (dats m) 0 (V0 m) [hostOps1] c main_v6
    = extractStridedSlice S16000x4 ![0, 0] (fused m c) Gen.slices_S16000x16_S16000x4_0_0 := by
  unfold Pipeline.afterTail₀
  show StableHlo.after hostOps1 _ (Proc.devRef .tc main_v6) = _
  after_results
  refine congrArg (fun A : S16000x16.Idx → EReal => extractStridedSlice S16000x4 ![0, 0] A Gen.slices_S16000x16_S16000x4_0_0) ?_
  exact (Pipeline.withArrays_arr spec0 launch0.win.arr_inj c _ _ 7).trans (final m c)

/-- The second result is the fused array's columns 4–15. -/
theorem tail_boxes (c : Dev nD) : Pipeline.afterTail₀ cfgs (dats m) 0 (V0 m) [hostOps1] c main_v7
    = extractStridedSlice S16000x12 ![0, 4] (fused m c) Gen.slices_S16000x16_S16000x12_0_4 := by
  unfold Pipeline.afterTail₀
  show StableHlo.after hostOps1 _ (Proc.devRef .tc main_v7) = _
  after_results
  refine congrArg (fun A : S16000x16.Idx → EReal => extractStridedSlice S16000x12 ![0, 4] A Gen.slices_S16000x16_S16000x12_0_4) ?_
  exact (Pipeline.withArrays_arr spec0 launch0.win.arr_inj c _ _ 7).trans (final m c)

/-! ## The operands are the arguments -/

/-- The nine arguments as the launch finds them. -/
def A0 (c : Dev nD) : S16000x12544.Idx → EReal := m ((c : Thread nD τ).loc main_arg0)
def A1 (c : Dev nD) : S12544x1024.Idx → EReal := m ((c : Thread nD τ).loc main_arg1)
def A2 (c : Dev nD) : S1024.Idx → EReal := m ((c : Thread nD τ).loc main_arg2)
def A3 (c : Dev nD) : S1024x1024.Idx → EReal := m ((c : Thread nD τ).loc main_arg3)
def A4 (c : Dev nD) : S1024.Idx → EReal := m ((c : Thread nD τ).loc main_arg4)
def A5 (c : Dev nD) : S1024x4.Idx → EReal := m ((c : Thread nD τ).loc main_arg5)
def A6 (c : Dev nD) : S4.Idx → EReal := m ((c : Thread nD τ).loc main_arg6)
def A7 (c : Dev nD) : S1024x12.Idx → EReal := m ((c : Thread nD τ).loc main_arg7)
def A8 (c : Dev nD) : S12.Idx → EReal := m ((c : Thread nD τ).loc main_arg8)

theorem X_eq (c : Dev nD) : X m c = A0 m c := V_main_arg0 m c
theorem W1_eq (c : Dev nD) : W1 m c = A1 m c := (V_w1 m c).trans rfl
theorem B1_eq (c : Dev nD) : B1 m c = A2 m c := V_main_arg2 m c
theorem W2_eq (c : Dev nD) : W2 m c = A3 m c := (V_w2 m c).trans rfl
theorem B2_eq (c : Dev nD) : B2 m c = A4 m c := V_main_arg4 m c

/-- A column of the joined output weights: one of the class weights' four, -/
theorem Wh_left (c : Dev nD) (j : Fin 1024) (q : Fin 4) :
    Wh m c (ix2 j ⟨q.val, by omega⟩) = A5 m c (ix2 j q) := by
  unfold Wh
  rw [V_wh m c]
  show concatenate S1024x16 1 [⟨S1024x4, A5 m c⟩, ⟨S1024x12, A7 m c⟩] Gen.concatenates_S1024x4_S1024x12_S1024x16_d1
    (ix2 j ⟨q.val, by omega⟩) = _
  rw [Cert.LibConcatCols.concat_cols_apply (by norm_num : 4 + 12 = 16), dif_pos q.isLt]

/-- or one of the box weights' twelve. -/
theorem Wh_right (c : Dev nD) (j : Fin 1024) (q : Fin 12) :
    Wh m c (ix2 j ⟨4 + q.val, by omega⟩) = A7 m c (ix2 j q) := by
  unfold Wh
  rw [V_wh m c]
  show concatenate S1024x16 1 [⟨S1024x4, A5 m c⟩, ⟨S1024x12, A7 m c⟩] Gen.concatenates_S1024x4_S1024x12_S1024x16_d1
    (ix2 j ⟨4 + q.val, by omega⟩) = _
  rw [Cert.LibConcatCols.concat_cols_apply (by norm_num : 4 + 12 = 16), dif_neg (by show ¬(4 + q.val < 4); omega)]
  exact congrArg (fun k => A7 m c (ix2 j k)) (Fin.ext (by show 4 + q.val - 4 = q.val; omega))

/-- The joined output bias likewise. -/
theorem Bh_left (c : Dev nD) (q : Fin 4) : Bh m c (ix1 ⟨q.val, by omega⟩) = A6 m c (ix1 q) := by
  unfold Bh
  rw [V_bh m c]
  show concatenate S16 0 [⟨S4, A6 m c⟩, ⟨S12, A8 m c⟩] Gen.concatenates_S4_S12_S16_d0 (ix1 ⟨q.val, by omega⟩) = _
  rw [Cert.LibConcatVec.concat_vec_apply (by norm_num : 4 + 12 = 16), dif_pos q.isLt]

theorem Bh_right (c : Dev nD) (q : Fin 12) : Bh m c (ix1 ⟨4 + q.val, by omega⟩) = A8 m c (ix1 q) := by
  unfold Bh
  rw [V_bh m c]
  show concatenate S16 0 [⟨S4, A6 m c⟩, ⟨S12, A8 m c⟩] Gen.concatenates_S4_S12_S16_d0 (ix1 ⟨4 + q.val, by omega⟩) = _
  rw [Cert.LibConcatVec.concat_vec_apply (by norm_num : 4 + 12 = 16), dif_neg (by show ¬(4 + q.val < 4); omega)]
  exact congrArg (fun k => A8 m c (ix1 k)) (Fin.ext (by show 4 + q.val - 4 = q.val; omega))

/-! ## The two results -/

/-- The class logits: the head over the class weights and bias. -/
def logitsOf (c : Dev nD) : S16000x4.Idx → EReal :=
  fun i => head z (A0 m c) (A1 m c) (A2 m c) (A3 m c) (A4 m c) (A5 m c) (A6 m c) (i 0) (i 1)

/-- The box predictions: the head over the box weights and bias. -/
def boxesOf (c : Dev nD) : S16000x12.Idx → EReal :=
  fun i => head z (A0 m c) (A1 m c) (A2 m c) (A3 m c) (A4 m c) (A7 m c) (A8 m c) (i 0) (i 1)

theorem logits_eq (c : Dev nD) :
    Pipeline.afterTail₀ cfgs (dats m) 0 (V0 m) [hostOps1] c main_v6 = logitsOf m c := by
  rw [tail_logits]
  funext i
  obtain ⟨a, q, rfl⟩ : ∃ (a : Fin 16000) (q : Fin 4), i = ix2 a q := ⟨i 0, i 1, eq_ix2 i⟩
  refine (slice2_axis1_apply 0 (fused m c) Gen.slices_S16000x16_S16000x4_0_0 a q ⟨q.val, by omega⟩
    (by show q.val = 0 + q.val; omega)).trans ?_
  show head z (X m c) (W1 m c) (B1 m c) (W2 m c) (B2 m c) (Wh m c) (Bh m c) a ⟨q.val, _⟩
    = head z (A0 m c) (A1 m c) (A2 m c) (A3 m c) (A4 m c) (A5 m c) (A6 m c) a q
  rw [X_eq, W1_eq, B1_eq, W2_eq, B2_eq]
  exact head_congr z _ _ _ _ _ (Wh m c) (Bh m c) (A5 m c) (A6 m c) a _ q (fun j => Wh_left m c j q) (Bh_left m c q)

theorem boxes_eq (c : Dev nD) :
    Pipeline.afterTail₀ cfgs (dats m) 0 (V0 m) [hostOps1] c main_v7 = boxesOf m c := by
  rw [tail_boxes]
  funext i
  obtain ⟨a, q, rfl⟩ : ∃ (a : Fin 16000) (q : Fin 12), i = ix2 a q := ⟨i 0, i 1, eq_ix2 i⟩
  refine (slice2_axis1_apply 4 (fused m c) Gen.slices_S16000x16_S16000x12_0_4 a q ⟨4 + q.val, by omega⟩ rfl).trans ?_
  show head z (X m c) (W1 m c) (B1 m c) (W2 m c) (B2 m c) (Wh m c) (Bh m c) a ⟨4 + q.val, _⟩
    = head z (A0 m c) (A1 m c) (A2 m c) (A3 m c) (A4 m c) (A7 m c) (A8 m c) a q
  rw [X_eq, W1_eq, B1_eq, W2_eq, B2_eq]
  exact head_congr z _ _ _ _ _ (Wh m c) (Bh m c) (A7 m c) (A8 m c) a _ q (fun j => Wh_right m c j q) (Bh_right m c q)

/-! ## The run, read -/

/-- Every weakly fair execution of the idealized kernel's program ends with the two results at the head over the class
    and the box weights, the arguments unchanged. -/
theorem run : θ_run defs (onTc (τ := τ) (main (F := Ideal))) ⟨m, fun _ => 0, ρ⟩ fun r => ∀ c : Dev nD,
      r.2.mem ((c.tc : Thread nD τ).loc main_v6) = logitsOf m c
      ∧ r.2.mem ((c.tc : Thread nD τ).loc main_v7) = boxesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v6 (Pipeline.mem_restRefs_of main_v6 (by decide) (by decide))).trans (logits_eq m c),
      ((h c).2 main_v7 (Pipeline.mem_restRefs_of main_v7 (by decide) (by decide))).trans (boxes_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Final

end
-- ==== Proof.RefValue.lean ====
/-
  The reference, read entry by entry: its two results are the output layer of the two-layer perceptron head over the
  class weights and over the box weights. Each matrix product is the sum over the contracted coordinate, each bias a row
  laid over every row, the rectifier the larger of the entry and the zero word.
-/
import proofs.«176440_j32427003085530_2_alg».proof.Proof.Gen.ReferenceIdeal.Read
import proofs.«176440_j32427003085530_2_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Read Cert.Head
open scoped BigOperators

/-- The zero word, as it reads. -/
abbrev z : EReal := Ideal.ofBits .f32 0x00000000#32

variable (x0 : S16000x12544.Idx → EReal) (x1 : S12544x1024.Idx → EReal) (x2 : S1024.Idx → EReal)
  (x3 : S1024x1024.Idx → EReal) (x4 : S1024.Idx → EReal) (x5 : S1024x4.Idx → EReal) (x6 : S4.Idx → EReal)
  (x7 : S1024x12.Idx → EReal) (x8 : S12.Idx → EReal)

/-- The first hidden layer. -/
theorem hidden1 (a : Fin 16000) (i : Fin 1024) :
    val_main_v4 (F := Ideal) x0 x1 x2 (ix2 a i) = hid1 z x0 x1 x2 a i := by
  have e1 : ∀ k : Fin 12544, lidx_main_v0 (ix2 a i) k = ix2 a k := fun k => funext fun ax => Fin.ext (by
    match ax with | ⟨0, _⟩ => rfl | ⟨1, _⟩ => rfl)
  have e2 : ∀ k : Fin 12544, ridx_main_v0 (ix2 a i) k = ix2 k i := fun k => funext fun ax => Fin.ext (by
    match ax with | ⟨0, _⟩ => rfl | ⟨1, _⟩ => rfl)
  have e3 : idx_main_v1 (idx_main_v2 (ix2 a i)) = ix1 i := funext fun ax => Fin.ext (by
    match ax with | ⟨0, _⟩ => rfl)
  rw [val_main_v4_apply, val_main_v3_apply, val_main_v0_apply, val_main_v2_apply, val_main_v1_apply,
    val_main_call0_v0_apply, val_main_call0_cst_apply]
  simp only [e1, e2, e3]
  rfl

/-- The second hidden layer. -/
theorem hidden2 (a : Fin 16000) (j : Fin 1024) :
    val_main_v9 (F := Ideal) x0 x1 x2 x3 x4 (ix2 a j) = hid2 z x0 x1 x2 x3 x4 a j := by
  have e1 : ∀ k : Fin 1024, lidx_main_v5 (ix2 a j) k = ix2 a k := fun k => funext fun ax => Fin.ext (by
    match ax with | ⟨0, _⟩ => rfl | ⟨1, _⟩ => rfl)
  have e2 : ∀ k : Fin 1024, ridx_main_v5 (ix2 a j) k = ix2 k j := fun k => funext fun ax => Fin.ext (by
    match ax with | ⟨0, _⟩ => rfl | ⟨1, _⟩ => rfl)
  have e3 : idx_main_v6 (idx_main_v7 (ix2 a j)) = ix1 j := funext fun ax => Fin.ext (by
    match ax with | ⟨0, _⟩ => rfl)
  rw [val_main_v9_apply, val_main_v8_apply, val_main_v5_apply, val_main_v7_apply, val_main_v6_apply,
    val_main_call1_v0_apply, val_main_call1_cst_apply]
  simp only [e1, e2, e3, hidden1]
  rfl

/-- The class logits. -/
theorem logits (a : Fin 16000) (q : Fin 4) :
    val_main_v13 (F := Ideal) x0 x1 x2 x3 x4 x5 x6 (ix2 a q) = head z x0 x1 x2 x3 x4 x5 x6 a q := by
  have e1 : ∀ k : Fin 1024, lidx_main_v10 (ix2 a q) k = ix2 a k := fun k => funext fun ax => Fin.ext (by
    match ax with | ⟨0, _⟩ => rfl | ⟨1, _⟩ => rfl)
  have e2 : ∀ k : Fin 1024, ridx_main_v10 (ix2 a q) k = ix2 k q := fun k => funext fun ax => Fin.ext (by
    match ax with | ⟨0, _⟩ => rfl | ⟨1, _⟩ => rfl)
  have e3 : idx_main_v11 (idx_main_v12 (ix2 a q)) = ix1 q := funext fun ax => Fin.ext (by
    match ax with | ⟨0, _⟩ => rfl)
  rw [val_main_v13_apply, val_main_v10_apply, val_main_v12_apply, val_main_v11_apply]
  simp only [e1, e2, e3, hidden2]
  rfl

/-- The box predictions. -/
theorem boxes (a : Fin 16000) (q : Fin 12) :
    val_main_v17 (F := Ideal) x0 x1 x2 x3 x4 x7 x8 (ix2 a q) = head z x0 x1 x2 x3 x4 x7 x8 a q := by
  have e1 : ∀ k : Fin 1024, lidx_main_v14 (ix2 a q) k = ix2 a k := fun k => funext fun ax => Fin.ext (by
    match ax with | ⟨0, _⟩ => rfl | ⟨1, _⟩ => rfl)
  have e2 : ∀ k : Fin 1024, ridx_main_v14 (ix2 a q) k = ix2 k q := fun k => funext fun ax => Fin.ext (by
    match ax with | ⟨0, _⟩ => rfl | ⟨1, _⟩ => rfl)
  have e3 : idx_main_v15 (idx_main_v16 (ix2 a q)) = ix1 q := funext fun ax => Fin.ext (by
    match ax with | ⟨0, _⟩ => rfl)
  rw [val_main_v17_apply, val_main_v14_apply, val_main_v16_apply, val_main_v15_apply]
  simp only [e1, e2, e3, hidden2]
  rfl

/-- The first result as one function of the arguments. -/
theorem logits_eq : val_main_v13 (F := Ideal) x0 x1 x2 x3 x4 x5 x6
    = fun i : S16000x4.Idx => head z x0 x1 x2 x3 x4 x5 x6 (i 0) (i 1) := by
  funext i
  obtain ⟨a, q, rfl⟩ : ∃ (a : Fin 16000) (q : Fin 4), i = ix2 a q := ⟨i 0, i 1, eq_ix2 i⟩
  exact logits x0 x1 x2 x3 x4 x5 x6 a q

/-- The second result as one function of the arguments. -/
theorem boxes_eq : val_main_v17 (F := Ideal) x0 x1 x2 x3 x4 x7 x8
    = fun i : S16000x12.Idx => head z x0 x1 x2 x3 x4 x7 x8 (i 0) (i 1) := by
  funext i
  obtain ⟨a, q, rfl⟩ : ∃ (a : Fin 16000) (q : Fin 12), i = ix2 a q := ⟨i 0, i 1, eq_ix2 i⟩
  exact boxes x0 x1 x2 x3 x4 x7 x8 a q

end Cert.ReferenceIdeal.RefValue

end
-- ==== Proof.lean ====
/-
  The certificate of a detection head's dense layers: a Pallas kernel that computes
  relu(relu(x·W1 + b1)·W2 + b2)·[Wc | Wr] + [bc | br] for 16000 proposals — the first product accumulated over
  fourteen column tiles of the 12544 features in a scratch block carried across grid points, the two small output
  layers fused into one 16-column product and cut apart again by the host — against the plain jnp reference that
  computes the class logits and the box predictions separately.

  At the exact values the two agree entry by entry: a change of float format is the identity, the matrix unit's product
  into a zero accumulator and the host's dot_general are the same sum over the contracted coordinate, the accumulator's
  fourteen partial sums added one after the other from the zero word are the whole sum over the features (sums of
  extended reals commute and associate; nothing is distributed or cancelled, so the inputs' finiteness is not used),
  and a column of the joined weights is a column of one of the two pieces. Both programs end at the head over the
  class weights and the head over the box weights of arguments that agree. The ideal pass rewrote nothing, so the
  idealization claim is trivial; the three frames are the generated runs.
-/
import proofs.«176440_j32427003085530_2_alg».proof.Defs
import proofs.«176440_j32427003085530_2_alg».proof.Proof.Gen.Kernel
import proofs.«176440_j32427003085530_2_alg».proof.Proof.Gen.Kernel.Frame
import proofs.«176440_j32427003085530_2_alg».proof.Proof.Gen.KernelIdeal
import proofs.«176440_j32427003085530_2_alg».proof.Proof.Gen.KernelIdeal.Frame
import proofs.«176440_j32427003085530_2_alg».proof.Proof.Gen.ReferenceIdeal
import proofs.«176440_j32427003085530_2_alg».proof.Proof.Gen.ReferenceIdeal.Run
import proofs.«176440_j32427003085530_2_alg».proof.Proof.Gen.ReferenceIdeal.Read
import proofs.«176440_j32427003085530_2_alg».proof.Proof.Gen.Pre_finite_inputs
import proofs.«176440_j32427003085530_2_alg».proof.Proof.Final
import proofs.«176440_j32427003085530_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the class logits and the box predictions at the two-layer perceptron head of the arguments,
    over the class weights and over the box weights. -/
theorem algebraic : Cert.algebraic_KernelIdeal_ReferenceIdeal := by
  intro m ρ m' ρ' _ hagree
  refine ⟨fun c => Cert.KernelIdeal.Final.logitsOf m c, fun c => Cert.KernelIdeal.Final.boxesOf m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v13_eq, Cert.ReferenceIdeal.RefValue.logits_eq, h0, h1, h2, h3, h4, h5, h6]
    rfl
  · obtain ⟨h0, h1, h2, h3, h4, h5, h6, h7, h8⟩ := hagree c
    rw [Cert.ReferenceIdeal.Read.val_main_v17_eq, Cert.ReferenceIdeal.RefValue.boxes_eq, h0, h1, h2, h3, h4, h7, h8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
